-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S256 : Shape := ⟨1, ![256]⟩
abbrev S50000x32 : Shape := ⟨2, ![50000, 32]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) (main_arg7 : IVec S50000x32 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S50000x256 : Shape := ⟨2, ![50000, 256]⟩
abbrev S256x256 : Shape := ⟨2, ![256, 256]⟩
abbrev S256 : Shape := ⟨1, ![256]⟩
abbrev S50000x32 : Shape := ⟨2, ![50000, 32]⟩
abbrev S50000x16 : Shape := ⟨2, ![50000, 16]⟩
abbrev S_ : Shape := ⟨0, ![]⟩
abbrev S50000x16x1 : Shape := ⟨3, ![50000, 16, 1]⟩
abbrev S50000x16x256 : Shape := ⟨3, ![50000, 16, 256]⟩
abbrev S50000x768 : Shape := ⟨2, ![50000, 768]⟩
abbrev S768x256 : Shape := ⟨2, ![768, 256]⟩
abbrev S2000x768 : Shape := ⟨2, ![2000, 768]⟩
abbrev S2000x256 : Shape := ⟨2, ![2000, 256]⟩
abbrev S1x256 : Shape := ⟨2, ![1, 256]⟩

abbrev nBuf : Space → Nat
  | .hbm => 43
  | .vmem => 6
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S50000x32, .i32⟩
  | .hbm, ⟨8, _⟩ => ⟨S50000x16, .i32⟩
  | .hbm, ⟨9, _⟩ => ⟨S50000x16, .i32⟩
  | .hbm, ⟨10, _⟩ => ⟨S_, .i32⟩
  | .hbm, ⟨11, _⟩ => ⟨S50000x16, .i32⟩
  | .hbm, ⟨12, _⟩ => ⟨S50000x16, .i1⟩
  | .hbm, ⟨13, _⟩ => ⟨S_, .i32⟩
  | .hbm, ⟨14, _⟩ => ⟨S50000x16, .i32⟩
  | .hbm, ⟨15, _⟩ => ⟨S50000x16, .i32⟩
  | .hbm, ⟨16, _⟩ => ⟨S50000x16, .i32⟩
  | .hbm, ⟨17, _⟩ => ⟨S50000x16x1, .i32⟩
  | .hbm, ⟨18, _⟩ => ⟨S50000x16x256, .f32⟩
  | .hbm, ⟨19, _⟩ => ⟨S_, .f32⟩
  | .hbm, ⟨20, _⟩ => ⟨S50000x256, .f32⟩
  | .hbm, ⟨21, _⟩ => ⟨S_, .f32⟩
  | .hbm, ⟨22, _⟩ => ⟨S50000x256, .f32⟩
  | .hbm, ⟨23, _⟩ => ⟨S50000x256, .f32⟩
  | .hbm, ⟨24, _⟩ => ⟨S_, .i32⟩
  | .hbm, ⟨25, _⟩ => ⟨S50000x16, .i32⟩
  | .hbm, ⟨26, _⟩ => ⟨S50000x16, .i1⟩
  | .hbm, ⟨27, _⟩ => ⟨S_, .i32⟩
  | .hbm, ⟨28, _⟩ => ⟨S50000x16, .i32⟩
  | .hbm, ⟨29, _⟩ => ⟨S50000x16, .i32⟩
  | .hbm, ⟨30, _⟩ => ⟨S50000x16, .i32⟩
  | .hbm, ⟨31, _⟩ => ⟨S50000x16x1, .i32⟩
  | .hbm, ⟨32, _⟩ => ⟨S50000x16x256, .f32⟩
  | .hbm, ⟨33, _⟩ => ⟨S_, .f32⟩
  | .hbm, ⟨34, _⟩ => ⟨S50000x256, .f32⟩
  | .hbm, ⟨35, _⟩ => ⟨S_, .f32⟩
  | .hbm, ⟨36, _⟩ => ⟨S50000x256, .f32⟩
  | .hbm, ⟨37, _⟩ => ⟨S50000x256, .f32⟩
  | .hbm, ⟨38, _⟩ => ⟨S50000x768, .f32⟩
  | .hbm, ⟨39, _⟩ => ⟨S768x256, .f32⟩
  | .hbm, ⟨40, _⟩ => ⟨S256, .f32⟩
  | .hbm, ⟨41, _⟩ => ⟨S256, .f32⟩
  | .hbm, ⟨42, _⟩ => ⟨S50000x256, .f32⟩
  | .local _ .vmem, ⟨0, _⟩ => ⟨S2000x768, .f32⟩
  | .local _ .vmem, ⟨1, _⟩ => ⟨S2000x768, .f32⟩
  | .local _ .vmem, ⟨2, _⟩ => ⟨S768x256, .f32⟩
  | .local _ .vmem, ⟨3, _⟩ => ⟨S256, .f32⟩
  | .local _ .vmem, ⟨4, _⟩ => ⟨S2000x256, .f32⟩
  | .local _ .vmem, ⟨5, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S50000x32_S50000x16_0_0 : S50000x32.Slices ![0, 0] S50000x16
  slices_S50000x32_S50000x16_0_16 : S50000x32.Slices ![0, 16] S50000x16
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  reducesTo_S50000x16x256_S50000x256_d1 : S50000x16x256.ReducesTo [1] S50000x256
  h_S_ : 0 < S_.numel
  bcast_S_S50000x256 : S_.BroadcastsInDim S50000x256 (![] : Fin 0 → Fin S50000x256.rank)
  concatenates_S50000x256_S50000x256_S50000x256_S50000x768_d1 : Shape.Concatenates [S50000x256, S50000x256, S50000x256] S50000x768 1
  concatenates_S256x256_S256x256_S256x256_S768x256_d0 : Shape.Concatenates [S256x256, S256x256, S256x256] S768x256 0
  inb_S2000x768_S2000x768_0_0 : ∀ a, (![0, 0] : Fin 2 → Nat) a + S2000x768.size a ≤ S2000x768.size a
  h_S2000x768 : 0 < S2000x768.numel
  shapeCasts_S2000x768_S2000x768 : S2000x768.ShapeCasts S2000x768
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  gather_S50000x256_S50000x16x1_S50000x16x256_2_0_n_n_0_2_1256_wf : GatherDims.WF S50000x256 S50000x16x1 S50000x16x256 [2] [0] [] [0] [] 2 ![1, 256]
  dot_S2000x768_S768x256_S2000x256_1_0_0_1_n_n_wf : DotDims.WF S2000x768 S768x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)

variable [Facts₀]

def gather_S50000x256_S50000x16x1_S50000x16x256_2_0_n_n_0_2_1256 : GatherDims S50000x256 S50000x16x1 S50000x16x256 where
  offsetDims := [2]
  collapsedSliceDims := [0]
  operandBatchingDims := []
  startIndicesBatchingDims := []
  startIndexMap := [0]
  indexVectorDim := 2
  sliceSizes := ![1, 256]
  wf := gather_S50000x256_S50000x16x1_S50000x16x256_2_0_n_n_0_2_1256_wf
def dot_S2000x768_S768x256_S2000x256_1_0_0_1_n_n : DotDims S2000x768 S768x256 S2000x256 where
  lhsContracting := [1]
  rhsContracting := [0]
  lhsNonContracting := [0]
  rhsNonContracting := [1]
  lhsBatch := []
  rhsBatch := []
  wf := dot_S2000x768_S768x256_S2000x256_1_0_0_1_n_n_wf

abbrev win0_0 : Pipeline.Window sig grid0 :=
  Pipeline.Window.ofSpec (Memref.whole main_v22) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x256 : Shape := ⟨2, ![50000, 256]⟩
abbrev S256x256 : Shape := ⟨2, ![256, 256]⟩
abbrev S256 : Shape := ⟨1, ![256]⟩
abbrev S50000x32 : Shape := ⟨2, ![50000, 32]⟩
abbrev S50000x16 : Shape := ⟨2, ![50000, 16]⟩
abbrev S_ : Shape := ⟨0, ![]⟩
abbrev S50000x16x1 : Shape := ⟨3, ![50000, 16, 1]⟩
abbrev S50000x16x256 : Shape := ⟨3, ![50000, 16, 256]⟩
abbrev S1x256 : Shape := ⟨2, ![1, 256]⟩

abbrev nBuf : Space → Nat
  | .hbm => 52
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S50000x32, .i32⟩
  | .hbm, ⟨8, _⟩ => ⟨S50000x16, .i32⟩
  | .hbm, ⟨9, _⟩ => ⟨S50000x16, .i32⟩
  | .hbm, ⟨10, _⟩ => ⟨S_, .i32⟩
  | .hbm, ⟨11, _⟩ => ⟨S50000x16, .i32⟩
  | .hbm, ⟨12, _⟩ => ⟨S50000x16, .i1⟩
  | .hbm, ⟨13, _⟩ => ⟨S_, .i32⟩
  | .hbm, ⟨14, _⟩ => ⟨S50000x16, .i32⟩
  | .hbm, ⟨15, _⟩ => ⟨S50000x16, .i32⟩
  | .hbm, ⟨16, _⟩ => ⟨S50000x16, .i32⟩
  | .hbm, ⟨17, _⟩ => ⟨S50000x16x1, .i32⟩
  | .hbm, ⟨18, _⟩ => ⟨S50000x16x256, .f32⟩
  | .hbm, ⟨19, _⟩ => ⟨S_, .f32⟩
  | .hbm, ⟨20, _⟩ => ⟨S50000x256, .f32⟩
  | .hbm, ⟨21, _⟩ => ⟨S_, .f32⟩
  | .hbm, ⟨22, _⟩ => ⟨S50000x256, .f32⟩
  | .hbm, ⟨23, _⟩ => ⟨S50000x256, .f32⟩
  | .hbm, ⟨24, _⟩ => ⟨S_, .i32⟩
  | .hbm, ⟨25, _⟩ => ⟨S50000x16, .i32⟩
  | .hbm, ⟨26, _⟩ => ⟨S50000x16, .i1⟩
  | .hbm, ⟨27, _⟩ => ⟨S_, .i32⟩
  | .hbm, ⟨28, _⟩ => ⟨S50000x16, .i32⟩
  | .hbm, ⟨29, _⟩ => ⟨S50000x16, .i32⟩
  | .hbm, ⟨30, _⟩ => ⟨S50000x16, .i32⟩
  | .hbm, ⟨31, _⟩ => ⟨S50000x16x1, .i32⟩
  | .hbm, ⟨32, _⟩ => ⟨S50000x16x256, .f32⟩
  | .hbm, ⟨33, _⟩ => ⟨S_, .f32⟩
  | .hbm, ⟨34, _⟩ => ⟨S50000x256, .f32⟩
  | .hbm, ⟨35, _⟩ => ⟨S_, .f32⟩
  | .hbm, ⟨36, _⟩ => ⟨S50000x256, .f32⟩
  | .hbm, ⟨37, _⟩ => ⟨S50000x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S1x256, .f32⟩
  | .hbm, ⟨44, _⟩ => ⟨S50000x256, .f32⟩
  | .hbm, ⟨45, _⟩ => ⟨S50000x256, .f32⟩
  | .hbm, ⟨46, _⟩ => ⟨S50000x256, .f32⟩
  | .hbm, ⟨47, _⟩ => ⟨S50000x256, .f32⟩
  | .hbm, ⟨48, _⟩ => ⟨S1x256, .f32⟩
  | .hbm, ⟨49, _⟩ => ⟨S50000x256, .f32⟩
  | .hbm, ⟨50, _⟩ => ⟨S50000x256, .f32⟩
  | .hbm, ⟨51, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  slices_S50000x32_S50000x16_0_0 : S50000x32.Slices ![0, 0] S50000x16
  slices_S50000x32_S50000x16_0_16 : S50000x32.Slices ![0, 16] S50000x16
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  reducesTo_S50000x16x256_S50000x256_d1 : S50000x16x256.ReducesTo [1] S50000x256
  h_S_ : 0 < S_.numel
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x256_S50000x16x1_S50000x16x256_2_0_n_n_0_2_1256_wf : GatherDims.WF S50000x256 S50000x16x1 S50000x16x256 [2] [0] [] [0] [] 2 ![1, 256]
  dot_S50000x256_S256x256_S50000x256_1_0_0_1_n_n_wf : DotDims.WF S50000x256 S256x256 S50000x256 [1] [0] [0] [1] [] []

variable [Facts₀]

def gather_S50000x256_S50000x16x1_S50000x16x256_2_0_n_n_0_2_1256 : GatherDims S50000x256 S50000x16x1 S50000x16x256 where
  offsetDims := [2]
  collapsedSliceDims := [0]
  operandBatchingDims := []
  startIndicesBatchingDims := []
  startIndexMap := [0]
  indexVectorDim := 2
  sliceSizes := ![1, 256]
  wf := gather_S50000x256_S50000x16x1_S50000x16x256_2_0_n_n_0_2_1256_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.RegionBits.lean ====
/-
  The launch of the fused layer's one kernel, as a run of `Cert.Kernel`'s `main`.

  `main` first computes, by array operations, the three operands of the kernel: the row-wise concatenation
  `[x | mean of sampled neighbours | mean of the other neighbours]` (50000 × 768), the stacked weights (768 × 256) and
  the summed bias (256). The kernel then runs over 25 points; point `t` is handed rows `2000 t … 2000 t + 1999` of the
  first operand and the whole of the other two, and writes rows `2000 t … 2000 t + 1999` of the result.

  This module states what the body leaves in its output block as a function of its three input blocks (`outBlock`),
  proves that the body does so and disturbs nothing else, and concludes that every execution of `main` terminates,
  faults nowhere, leaves each of the three operands and each argument as it was, and leaves the result array at what the
  25 write-backs of `outBlock` assemble (`run_main`). Nothing here depends on what the floating-point operations
  compute: every statement holds at any interpretation `F` of them.
-/
import proofs.«181378_j65000035058039_1_alg».proof.Proof.Gen.Kernel.Launch
import proofs.«181378_j65000035058039_1_alg».proof.Proof.Gen.Kernel.Skeleton
import proofs.«181378_j65000035058039_1_alg».proof.Proof.Gen.Kernel.Points
import Idealize.ShloMosaic.Lib.Pipeline.FrameBody
import Idealize.ShloMosaic.Lib.Ring
import Idealize.ShloMosaic.Lib.Tactic

-- membership of an index in a rectangle with a 2000-long axis is checked one coordinate at a time
set_option maxRecDepth 16384

noncomputable section

namespace Cert.Kernel.Region

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## `main` up to the launch -/

/-- Core `c`'s arrays when the kernel is launched: the given memory after the 34 array operations that precede the launch. -/
abbrev V (c : Dev nD) (b : Ref sig .tc) : Buf (Elt F) ((c : Thread nD τ).loc b) :=
  StableHlo.after hostOps0 (fun b => m (c, b)) b

/-- Each of those operations writes an array that exists from the start (none allocates). -/
theorem hostOps0_fresh : (hostOps0 : List (HloOp τ sig (Elt F))).Forall fun op => op.fresh = ∅ := by
  simp only [List.Forall]; repeat' constructor

/-- `main` is those operations followed by the launch, and the launch finds the arrays at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the operations before the launch writes argument 0: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- None of the operations before the launch writes argument 1: the launch finds it as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- None of the operations before the launch writes argument 2: the launch finds it as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- None of the operations before the launch writes argument 3: the launch finds it as given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- None of the operations before the launch writes argument 4: the launch finds it as given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- None of the operations before the launch writes argument 5: the launch finds it as given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- None of the operations before the launch writes argument 6: the launch finds it as given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- None of the operations before the launch writes argument 7: the launch finds it as given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved, so the block left by the previous point is this point's. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is not
    fetched its block index has not moved, so the block left by the previous point is this point's. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is not
    fetched its block index has not moved, so the block left by the previous point is this point's. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame property from a run to the launch's postcondition -/

/-- No window stages an argument of `main`: each is among the arrays the launch leaves as it found them, and the
    launch found them as given (`V_main_argK`). -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's accesses: each is the whole of a staging buffer -/

abbrev rX : Rect S2000x768 := Rect.unit (s := S2000x768) ![0, 0] S2000x768.size inb_S2000x768_S2000x768_0_0
abbrev rW : Rect S768x256 := Rect.unit (s := S768x256) ![0, 0] S768x256.size inb_S768x256_S768x256_0_0
abbrev rB : Rect S256 := Rect.unit (s := S256) ![0] S256.size inb_S256_S256_0
abbrev rO : Rect S2000x256 := Rect.unit (s := S2000x256) ![0, 0] S2000x256.size inb_S2000x256_S2000x256_0_0

/-! ## What the body leaves in the output block -/

/-- The output block after the body, from the three input blocks: its one store, of the body's arithmetic
    (`k0_pay1`: the product of the first two blocks plus the third broadcast over the rows), over the whole block. -/
def outBlock (x : Vec F S2000x768 .f32) (w : Vec F S768x256 .f32) (b : Vec F S256 .f32) : Vec F S2000x256 .f32 :=
  View.canon [⟨rO, k0_pay1 (View.ld x rX) (View.ld w rW) (View.ld b rB)⟩]

/-- That store covers the block. -/
theorem cover_out (p0 : Vec F S2000x256 .f32) (y : S2000x256.Idx) :
    ∃ pc ∈ ([⟨rO, p0⟩] : List (View.Piece (Elt F) S2000x256 .f32)), y ∈ pc.1.set :=
  View.cover_of_tiled [⟨rO, p0⟩] S2000x256.size (by rfl) y

/-! ## The body -/

set_option maxHeartbeats 1000000 in
/-- The body, on whole staging buffers holding `x0`, `x1`, `x2` and an output buffer holding anything, runs to its
    end holding the inputs as they were and the output at `outBlock x0 x1 x2`. (It reads the output buffer once before
    overwriting all of it; what it read is not used.) -/
theorem sound_kernel (c : Dev nD) (E : Set ℕ) (i : grid0.Coords)
    (arg1 : Memref sig .tc .vmem S2000x768 .f32) (harg1 : arg1.IsWhole) (arg2 : Memref sig .tc .vmem S768x256 .f32) (harg2 : arg2.IsWhole)
    (arg3 : Memref sig .tc .vmem S256 .f32) (harg3 : arg3.IsWhole) (arg4 : Memref sig .tc .vmem S2000x256 .f32) (harg4 : arg4.IsWhole)
    (x0 : Vec F S2000x768 .f32) (x1 : Vec F S768x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__fused_kernel i arg1 harg1 arg2 harg2 arg3 harg3 arg4 harg4) K := by
  simp only [cc0__fused_kernel_eq_skeleton]; unfold cc0__fused_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The launch's proof data -/

/-- On core `c`: the arrays as the launch finds them; after the body at point `t` each input's buffer at its block and
    the output's at `outBlock` of the three input blocks; nothing else of the core's is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_out (c : Dev nD) (t : Fin cfg0.N) :
    (dats m 0 c).after 3 t = outBlock (iblk m c 0 t) (iblk m c 1 t) (iblk m c 2 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d

/-! ## The body at a point of the grid -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At any point the input buffers hold their blocks, so `sound_kernel` applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2]
  rw [show (dats m 0 c).Φ t.succ = (dats m 0 c).Φ t.castSucc from rfl,
    show (dats m 0 c).owesAt () t.succ = (dats m 0 c).owesAt () t.castSucc from rfl,
    after_in0, after_in1, after_in2, after_out]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters, every weakly fair execution of `main` terminates without a fault; at the end each
    of the kernel's four arrays holds what the 25 points' write-backs assemble from the proof data (an operand: what the
    launch found) and every other array what the launch found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame property: `main` runs to its end and leaves its eight arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.Kernel.Region

end
-- ==== Proof.RegionIdeal.lean ====
/-
  The launch of the fused layer's one kernel, as a run of `Cert.KernelIdeal`'s `main`.

  `main` first computes, by array operations, the three operands of the kernel: the row-wise concatenation
  `[x | mean of sampled neighbours | mean of the other neighbours]` (50000 × 768), the stacked weights (768 × 256) and
  the summed bias (256). The kernel then runs over 25 points; point `t` is handed rows `2000 t … 2000 t + 1999` of the
  first operand and the whole of the other two, and writes rows `2000 t … 2000 t + 1999` of the result.

  This module states what the body leaves in its output block as a function of its three input blocks (`outBlock`),
  proves that the body does so and disturbs nothing else, and concludes that every execution of `main` terminates,
  faults nowhere, leaves each of the three operands and each argument as it was, and leaves the result array at what the
  25 write-backs of `outBlock` assemble (`run_main`). Nothing here depends on what the floating-point operations
  compute: every statement holds at any interpretation `F` of them.
-/
import proofs.«181378_j65000035058039_1_alg».proof.Proof.Gen.KernelIdeal.Launch
import proofs.«181378_j65000035058039_1_alg».proof.Proof.Gen.KernelIdeal.Skeleton
import proofs.«181378_j65000035058039_1_alg».proof.Proof.Gen.KernelIdeal.Points
import Idealize.ShloMosaic.Lib.Pipeline.FrameBody
import Idealize.ShloMosaic.Lib.Ring
import Idealize.ShloMosaic.Lib.Tactic

-- membership of an index in a rectangle with a 2000-long axis is checked one coordinate at a time
set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## `main` up to the launch -/

/-- Core `c`'s arrays when the kernel is launched: the given memory after the 34 array operations that precede the launch. -/
abbrev V (c : Dev nD) (b : Ref sig .tc) : Buf (Elt F) ((c : Thread nD τ).loc b) :=
  StableHlo.after hostOps0 (fun b => m (c, b)) b

/-- Each of those operations writes an array that exists from the start (none allocates). -/
theorem hostOps0_fresh : (hostOps0 : List (HloOp τ sig (Elt F))).Forall fun op => op.fresh = ∅ := by
  simp only [List.Forall]; repeat' constructor

/-- `main` is those operations followed by the launch, and the launch finds the arrays at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the operations before the launch writes argument 0: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- None of the operations before the launch writes argument 1: the launch finds it as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- None of the operations before the launch writes argument 2: the launch finds it as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- None of the operations before the launch writes argument 3: the launch finds it as given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- None of the operations before the launch writes argument 4: the launch finds it as given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- None of the operations before the launch writes argument 5: the launch finds it as given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- None of the operations before the launch writes argument 6: the launch finds it as given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- None of the operations before the launch writes argument 7: the launch finds it as given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved, so the block left by the previous point is this point's. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is not
    fetched its block index has not moved, so the block left by the previous point is this point's. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is not
    fetched its block index has not moved, so the block left by the previous point is this point's. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame property from a run to the launch's postcondition -/

/-- No window stages an argument of `main`: each is among the arrays the launch leaves as it found them, and the
    launch found them as given (`V_main_argK`). -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's accesses: each is the whole of a staging buffer -/

abbrev rX : Rect S2000x768 := Rect.unit (s := S2000x768) ![0, 0] S2000x768.size inb_S2000x768_S2000x768_0_0
abbrev rW : Rect S768x256 := Rect.unit (s := S768x256) ![0, 0] S768x256.size inb_S768x256_S768x256_0_0
abbrev rB : Rect S256 := Rect.unit (s := S256) ![0] S256.size inb_S256_S256_0
abbrev rO : Rect S2000x256 := Rect.unit (s := S2000x256) ![0, 0] S2000x256.size inb_S2000x256_S2000x256_0_0

/-! ## What the body leaves in the output block -/

/-- The output block after the body, from the three input blocks: its one store, of the body's arithmetic
    (`k0_pay1`: the product of the first two blocks plus the third broadcast over the rows), over the whole block. -/
def outBlock (x : Vec F S2000x768 .f32) (w : Vec F S768x256 .f32) (b : Vec F S256 .f32) : Vec F S2000x256 .f32 :=
  View.canon [⟨rO, k0_pay1 (View.ld x rX) (View.ld w rW) (View.ld b rB)⟩]

/-- That store covers the block. -/
theorem cover_out (p0 : Vec F S2000x256 .f32) (y : S2000x256.Idx) :
    ∃ pc ∈ ([⟨rO, p0⟩] : List (View.Piece (Elt F) S2000x256 .f32)), y ∈ pc.1.set :=
  View.cover_of_tiled [⟨rO, p0⟩] S2000x256.size (by rfl) y

/-! ## The body -/

set_option maxHeartbeats 1000000 in
/-- The body, on whole staging buffers holding `x0`, `x1`, `x2` and an output buffer holding anything, runs to its
    end holding the inputs as they were and the output at `outBlock x0 x1 x2`. (It reads the output buffer once before
    overwriting all of it; what it read is not used.) -/
theorem sound_kernel (c : Dev nD) (E : Set ℕ) (i : grid0.Coords)
    (arg1 : Memref sig .tc .vmem S2000x768 .f32) (harg1 : arg1.IsWhole) (arg2 : Memref sig .tc .vmem S768x256 .f32) (harg2 : arg2.IsWhole)
    (arg3 : Memref sig .tc .vmem S256 .f32) (harg3 : arg3.IsWhole) (arg4 : Memref sig .tc .vmem S2000x256 .f32) (harg4 : arg4.IsWhole)
    (x0 : Vec F S2000x768 .f32) (x1 : Vec F S768x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__fused_kernel i arg1 harg1 arg2 harg2 arg3 harg3 arg4 harg4) K := by
  simp only [cc0__fused_kernel_eq_skeleton]; unfold cc0__fused_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The launch's proof data -/

/-- On core `c`: the arrays as the launch finds them; after the body at point `t` each input's buffer at its block and
    the output's at `outBlock` of the three input blocks; nothing else of the core's is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_out (c : Dev nD) (t : Fin cfg0.N) :
    (dats m 0 c).after 3 t = outBlock (iblk m c 0 t) (iblk m c 1 t) (iblk m c 2 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d

/-! ## The body at a point of the grid -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At any point the input buffers hold their blocks, so `sound_kernel` applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2]
  rw [show (dats m 0 c).Φ t.succ = (dats m 0 c).Φ t.castSucc from rfl,
    show (dats m 0 c).owesAt () t.succ = (dats m 0 c).owesAt () t.castSucc from rfl,
    after_in0, after_in1, after_in2, after_out]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters, every weakly fair execution of `main` terminates without a fault; at the end each
    of the kernel's four arrays holds what the 25 points' write-backs assemble from the proof data (an operand: what the
    launch found) and every other array what the launch found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame property: `main` runs to its end and leaves its eight arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.KernelIdeal.Region

end
-- ==== Proof.BlockValueIdeal.lean ====
/-
  The body's arithmetic read at one entry of the output block, on the extended reals.

  With `x` the 2000 × 768 block of the concatenated operand, `w` the 768 × 256 stacked weights and `b` the 256 summed
  biases, entry `(p, q)` of what the body stores is `∑ k < 768, x (p, k) · w (k, q) + b q`: the two changes of
  floating-point format are the identity on the extended reals, the matrix unit's product into a zero accumulator is the
  plain sum of products, and the bias is one row repeated over the 2000 rows.
-/
import proofs.«181378_j65000035058039_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.BlockValue

open Cert.KernelIdeal.Gen Idealize.ShloMosaic Idealize.ShloMosaic.ValueIdx

/-- The left operand of the product at output entry `j` and contraction index `q` is read in row `j 0`, -/
theorem lhs_row (j : S2000x256.Idx) (q : dot_S2000x768_S768x256_S2000x256_1_0_0_1_n_n.contr.Idx) :
    (dot_S2000x768_S768x256_S2000x256_1_0_0_1_n_n.lhsIdx j q 0).val = (j 0).val := by
  unfold DotDims.lhsIdx
  rw [dif_neg (show ¬(0 : Fin S2000x768.rank) ∈ dot_S2000x768_S768x256_S2000x256_1_0_0_1_n_n.lhsBatch by decide), dif_pos (show (0 : Fin S2000x768.rank) ∈ dot_S2000x768_S768x256_S2000x256_1_0_0_1_n_n.lhsNonContracting by decide)]
  rfl
/-- at the contraction index's column; -/
theorem lhs_col (j : S2000x256.Idx) (q : dot_S2000x768_S768x256_S2000x256_1_0_0_1_n_n.contr.Idx) :
    (dot_S2000x768_S768x256_S2000x256_1_0_0_1_n_n.lhsIdx j q 1).val = (q ⟨0, by decide⟩).val :=
  dot_S2000x768_S768x256_S2000x256_1_0_0_1_n_n.lhsIdx_val_of_single rfl j q
/-- the right operand in the contraction index's row, -/
theorem rhs_row (j : S2000x256.Idx) (q : dot_S2000x768_S768x256_S2000x256_1_0_0_1_n_n.contr.Idx) :
    (dot_S2000x768_S768x256_S2000x256_1_0_0_1_n_n.rhsIdx j q 0).val = (q ⟨0, by decide⟩).val :=
  dot_S2000x768_S768x256_S2000x256_1_0_0_1_n_n.rhsIdx_val_of_single rfl j q
/-- at column `j 1`. -/
theorem rhs_col (j : S2000x256.Idx) (q : dot_S2000x768_S768x256_S2000x256_1_0_0_1_n_n.contr.Idx) :
    (dot_S2000x768_S768x256_S2000x256_1_0_0_1_n_n.rhsIdx j q 1).val = (j 1).val := by
  unfold DotDims.rhsIdx
  rw [dif_neg (show ¬(1 : Fin S768x256.rank) ∈ dot_S2000x768_S768x256_S2000x256_1_0_0_1_n_n.rhsBatch by decide), dif_pos (show (1 : Fin S768x256.rank) ∈ dot_S2000x768_S768x256_S2000x256_1_0_0_1_n_n.rhsNonContracting by decide)]
  rfl

/-- The product into a zero accumulator, at entry `(p, q)`: the sum over the 768 contraction places. -/
theorem product_apply (x : FVec Ideal S2000x768 .bf16) (w : FVec Ideal S768x256 .bf16) (p : Fin 2000) (q : Fin 256) :
    matmul dot_S2000x768_S768x256_S2000x256_1_0_0_1_n_n none x w (constant (F := Ideal) S2000x256 .f32 0x00000000#32) (ix2 p q)
      = ∑ k : Fin 768, x (ix2 p k) * w (ix2 k q) := by
  simp only [matmul]
  rw [Ideal.matmul_constant_zero_apply, ← Equiv.sum_comp (ValueIdx.contrEquiv1 dot_S2000x768_S768x256_S2000x256_1_0_0_1_n_n 768 rfl rfl).symm]
  refine Finset.sum_congr rfl fun k _ => ?_
  have hk := ValueIdx.contrEquiv1_symm_val dot_S2000x768_S768x256_S2000x256_1_0_0_1_n_n 768 rfl rfl k
  have el : dot_S2000x768_S768x256_S2000x256_1_0_0_1_n_n.lhsIdx (ix2 p q) ((ValueIdx.contrEquiv1 dot_S2000x768_S768x256_S2000x256_1_0_0_1_n_n 768 rfl rfl).symm k) = ix2 p k := funext fun a => Fin.ext (by
    match a with
    | ⟨0, _⟩ => exact lhs_row _ _
    | ⟨1, _⟩ => exact (lhs_col _ _).trans hk)
  have er : dot_S2000x768_S768x256_S2000x256_1_0_0_1_n_n.rhsIdx (ix2 p q) ((ValueIdx.contrEquiv1 dot_S2000x768_S768x256_S2000x256_1_0_0_1_n_n 768 rfl rfl).symm k) = ix2 k q := funext fun a => Fin.ext (by
    match a with
    | ⟨0, _⟩ => exact (rhs_row _ _).trans hk
    | ⟨1, _⟩ => exact rhs_col _ _)
  rw [el, er]

/-- What the body stores, at entry `(p, q)` of the output block. -/
theorem stored_apply (x : Vec Ideal S2000x768 .f32) (w : Vec Ideal S768x256 .f32) (b : Vec Ideal S256 .f32) (p : Fin 2000) (q : Fin 256) :
    k0_pay1 (F := Ideal) x w b (ix2 p q) = (∑ k : Fin 768, x (ix2 p k) * w (ix2 k q)) + b (ix1 q) := by
  unfold k0_pay1
  rw [addf_apply, shapeCast_self, shapeCast_self, shapeCast_self, broadcastTo_1b_ab_apply, shapeCast_a_1a_apply, product_apply]
  rfl

end Cert.KernelIdeal.BlockValue

end
-- ==== Proof.ResultIdeal.lean ====
/-
  The result array of the idealized kernel program, as one function of the kernel's three operands.

  Point `t` of the 25 writes rows `2000 t … 2000 t + 1999` of the result, and what it writes there is, entry by entry,
  `layer XC WC BC (r, q) = ∑ k < 768, XC (r, k) · WC (k, q) + BC q` of the operand arrays as the launch found them:
  the block of `XC` handed to point `t` is exactly those rows, and `WC`, `BC` are handed whole. The 25 row bands
  tile the 50000 rows, so after the run the result array is `layer XC WC BC` everywhere.
-/
import proofs.«181378_j65000035058039_1_alg».proof.Proof.RegionIdeal
import proofs.«181378_j65000035058039_1_alg».proof.Proof.BlockValueIdeal
import Idealize.ShloMosaic.Lib.Pipeline.Value

set_option maxRecDepth 16384

noncomputable section

open scoped BigOperators

namespace Cert.KernelIdeal.Result

open Cert.KernelIdeal.Gen Cert.KernelIdeal.Region Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The layer as one function of its operands: the concatenated input (50000 × 768), the stacked weights (768 × 256)
    and the summed bias (256). -/
def layer (XC : S50000x768.Idx → EReal) (WC : S768x256.Idx → EReal) (BC : S256.Idx → EReal) : S50000x256.Idx → EReal :=
  fun i => (∑ k : Fin 768, XC (ix2 (i 0) k) * WC (ix2 k (i 1))) + BC (ix1 (i 1))

theorem zero2 : (![0, 0] : Fin 2 → Nat) = fun _ => 0 := funext fun a => by fin_cases a <;> rfl
theorem zero1 : (![0] : Fin 1 → Nat) = fun _ => 0 := funext fun a => by fin_cases a; rfl

/-- The block indices at point `t`: the first operand's and the result's row band is `t`; every other block index is 0. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The kernel's three operands as the launch finds them on core `c`, as arrays of extended reals. -/
abbrev XC (c : Dev nD) : S50000x768.Idx → EReal := V m c main_v22
abbrev WC (c : Dev nD) : S768x256.Idx → EReal := V m c main_v23
abbrev BC (c : Dev nD) : S256.Idx → EReal := V m c main_v25

/-- Entry `y` of the first operand's block at point `t` is the operand at row `2000 t + y 0`, column `y 1`. -/
theorem readX (c : Dev nD) (t : Fin cfg0.N) (y : S2000x768.Idx) (i : S50000x768.Idx)
    (h0 : (i 0).val = t.val * 2000 + (y 0).val) (h1 : (i 1).val = (y 1).val) :
    (iblk m c 0 t y : EReal) = XC m c i := by
  obtain ⟨e00, e01, -⟩ := block_indices t
  show V m c main_v22 (((cfg0.win 0).blk t).view.emb y) = V m c main_v22 i
  refine congrArg _ ?_
  funext a; apply Fin.ext
  match a with
  | ⟨0, _⟩ => show win0_0.index t (0 : Fin 2) * 2000 + 1 * (y 0).val = (i 0).val; omega
  | ⟨1, _⟩ => show win0_0.index t (1 : Fin 2) * 768 + 1 * (y 1).val = (i 1).val; omega

/-- The second operand is handed whole: entry `y` of its block is the operand at `y`. -/
theorem readW (c : Dev nD) (t : Fin cfg0.N) (y : S768x256.Idx) : (iblk m c 1 t y : EReal) = WC m c y := by
  obtain ⟨-, -, e10, e11, -⟩ := block_indices t
  show V m c main_v23 (((cfg0.win 1).blk t).view.emb y) = V m c main_v23 y
  refine congrArg _ ?_
  funext a; apply Fin.ext
  match a with
  | ⟨0, _⟩ => show win0_1.index t (0 : Fin 2) * 768 + 1 * (y 0).val = (y 0).val; omega
  | ⟨1, _⟩ => show win0_1.index t (1 : Fin 2) * 256 + 1 * (y 1).val = (y 1).val; omega

/-- So is the third. -/
theorem readB (c : Dev nD) (t : Fin cfg0.N) (y : S256.Idx) : (iblk m c 2 t y : EReal) = BC m c y := by
  obtain ⟨-, -, -, -, e20, -⟩ := block_indices t
  show V m c main_v25 (((cfg0.win 2).blk t).view.emb y) = V m c main_v25 y
  refine congrArg _ ?_
  funext a; apply Fin.ext
  match a with
  | ⟨0, _⟩ => show win0_2.index t (0 : Fin 1) * 256 + 1 * (y 0).val = (y 0).val; omega

/-- Entry `(p, q)` of the result's band at point `t` is the result array's entry at row `2000 t + p`, column `q`. -/
theorem readBand (t : Fin cfg0.N) (G : S50000x256.Idx → EReal) (p : Fin 2000) (q : Fin 256) (r : Fin 50000)
    (hr : r.val = t.val * 2000 + p.val) :
    ((cfg0.win 3).blk t).view.read (Elt Ideal) G (ix2 p q) = G (ix2 r q) := by
  obtain ⟨-, -, -, -, -, e30, e31⟩ := block_indices t
  show G (((cfg0.win 3).blk t).view.emb (ix2 p q)) = G (ix2 r q)
  refine congrArg _ ?_
  funext a; apply Fin.ext
  match a with
  | ⟨0, _⟩ => show win0_3.index t (0 : Fin 2) * 2000 + 1 * p.val = r.val; omega
  | ⟨1, _⟩ => show win0_3.index t (1 : Fin 2) * 256 + 1 * q.val = q.val; omega

set_option maxHeartbeats 1000000 in
/-- What point `t` writes back is band `t` of `layer` of the operand arrays as the launch found them. -/
theorem written_eq (c : Dev nD) (t : Fin cfg0.N) :
    (dats m 0 c).flushed 3 t
      = ((cfg0.win 3).blk t).view.read (Elt Ideal) (layer (XC m c) (WC m c) (BC m c)) := by
  show (cfg0.win 3).cut (grid0.coords t) ((dats m 0 c).after 3 t) = _
  rw [after_out]
  unfold outBlock
  rw [View.canon_unit_zero zero2]
  simp only [View.ld_unit_zero (S := S2000x768) zero2, View.ld_unit_zero (S := S768x256) zero2, View.ld_unit_zero (S := S256) zero1]
  funext j
  obtain ⟨p, q, rfl⟩ : ∃ (p : Fin 2000) (q : Fin 256), j = ix2 p q := ⟨j 0, j 1, eq_ix2 j⟩
  have hN : cfg0.N = 25 := N_0
  have hrow : t.val * 2000 + p.val < 50000 := by have := t.isLt; have := p.isLt; omega
  refine (BlockValue.stored_apply (iblk m c 0 t) (iblk m c 1 t) (iblk m c 2 t) p q).trans ?_
  refine Eq.trans ?_ (readBand t (layer (XC m c) (WC m c) (BC m c)) p q ⟨t.val * 2000 + p.val, hrow⟩ rfl).symm
  exact congrArg₂ (· + ·)
    (Finset.sum_congr rfl fun k _ => congrArg₂ (· * ·)
      (readX m c t (ix2 p k) (ix2 ⟨t.val * 2000 + p.val, hrow⟩ k) rfl rfl) (readW m c t (ix2 k q)))
    (readB m c t (ix1 q))

/-- An index of the result array is in point `t`'s band iff each coordinate is in the band's range on its axis. -/
theorem mem_band (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v26).slice (win0_3.rect t)).set ↔ _
  rw [View.set_slice_whole, Rect.mem_set_unit]
  exact Iff.rfl

/-- Every index of the result array lies in the band of the point `row / 2000`, which writes its band back. -/
theorem covered (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, -, e30, e31⟩ := block_indices t
  have ht : t.val = (i 0).val / 2000 := rfl
  refine ⟨t, flush0_3 t, ?_⟩
  rw [mem_band]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- The result array after the run. -/
theorem final (c : Dev nD) :
    (dats m 0 c).arrAt 3 cfg0.N = layer (XC m c) (WC m c) (BC m c) :=
  (dats m 0 c).arrAt_eq_of_cover 3 _ (fun t _ => written_eq m c t) covered

/-- Every execution of the idealized kernel program terminates; at the end the result array is `layer` of the three
    operands as the launch found them, and the eight arguments are unchanged. -/
theorem run : θ_run defs (onTc (τ := τ) (main (F := Ideal))) ⟨m, fun _ => 0, ρ⟩ fun r => ∀ c : Dev nD,
      r.2.mem ((c.tc : Thread nD τ).loc main_v26) = layer (XC m c) (WC m c) (BC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.KernelIdeal.Result

end
-- ==== Proof.OperandsIdeal.lean ====
/-
  The kernel's three operands as functions of the arguments, read at an index.

  Before the launch, `main` builds: the first operand as the arguments' features `x`, the mean of `x` over each node's 16
  sampled neighbours and the mean over its 16 other neighbours, side by side (columns 0–255, 256–511, 512–767); the second
  as the three weight matrices stacked (rows 0–255, 256–511, 512–767); the third as the sum of the three biases,
  `(b_self + b_neigh) + b_coarsen`. The two neighbour means are computed by the same operations, with the same constants,
  as in the reference program, and are carried here as that program's own terms for them: nothing below looks inside them.
-/
import proofs.«181378_j65000035058039_1_alg».proof.Proof.ResultIdeal
import proofs.«181378_j65000035058039_1_alg».proof.Proof.Gen.ReferenceIdeal.Read
import Idealize.ShloMosaic.Lib.StableHlo.Run

set_option maxRecDepth 16384

noncomputable section

open scoped BigOperators

namespace Cert.KernelIdeal.Operands

open Cert.KernelIdeal.Gen Cert.KernelIdeal.Region Cert.KernelIdeal.Result
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The arguments on core `c`, as arrays: features, three weight matrices, three biases, -/
abbrev feat (c : Dev nD) : S50000x256.Idx → EReal := m ((c : Thread nD τ).loc main_arg0)
abbrev wSelf (c : Dev nD) : S256x256.Idx → EReal := m ((c : Thread nD τ).loc main_arg1)
abbrev bSelf (c : Dev nD) : S256.Idx → EReal := m ((c : Thread nD τ).loc main_arg2)
abbrev wNeigh (c : Dev nD) : S256x256.Idx → EReal := m ((c : Thread nD τ).loc main_arg3)
abbrev bNeigh (c : Dev nD) : S256.Idx → EReal := m ((c : Thread nD τ).loc main_arg4)
abbrev wCoarsen (c : Dev nD) : S256x256.Idx → EReal := m ((c : Thread nD τ).loc main_arg5)
abbrev bCoarsen (c : Dev nD) : S256.Idx → EReal := m ((c : Thread nD τ).loc main_arg6)
/-- and the two neighbour means, as the reference program's terms for them. -/
abbrev meanSampled (c : Dev nD) : S50000x256.Idx → EReal :=
  Cert.ReferenceIdeal.Read.val_main_v11 (F := Ideal) (m ((c : Thread nD τ).loc main_arg0)) (m ((c : Thread nD τ).loc main_arg7))
abbrev meanOthers (c : Dev nD) : S50000x256.Idx → EReal :=
  Cert.ReferenceIdeal.Read.val_main_v21 (F := Ideal) (m ((c : Thread nD τ).loc main_arg0)) (m ((c : Thread nD τ).loc main_arg7))

set_option maxHeartbeats 2000000 in
/-- The first operand is the three feature arrays side by side. -/
theorem operandX (c : Dev nD) :
    XC m c = concatenate S50000x768 1 [⟨S50000x256, feat m c⟩, ⟨S50000x256, meanSampled m c⟩, ⟨S50000x256, meanOthers m c⟩]
      concatenates_S50000x256_S50000x256_S50000x256_S50000x768_d1 := by
  dsimp only [XC, V, hostOps0]
  after_results
  rfl

set_option maxHeartbeats 2000000 in
/-- The second operand is the three weight matrices stacked. -/
theorem operandW (c : Dev nD) :
    WC m c = concatenate S768x256 0 [⟨S256x256, wSelf m c⟩, ⟨S256x256, wNeigh m c⟩, ⟨S256x256, wCoarsen m c⟩]
      concatenates_S256x256_S256x256_S256x256_S768x256_d0 := by
  dsimp only [WC, V, hostOps0]
  after_results
  rfl

set_option maxHeartbeats 2000000 in
/-- The third operand is the sum of the three biases, in this order. -/
theorem operandB (c : Dev nD) (q : Fin 256) :
    BC m c (ix1 q) = (bSelf m c (ix1 q) + bNeigh m c (ix1 q)) + bCoarsen m c (ix1 q) := by
  have e : BC m c = fun i => (bSelf m c i + bNeigh m c i) + bCoarsen m c i := by
    dsimp only [BC, V, hostOps0]
    after_results
    rfl
  rw [e]

/-- Columns `0 … 255` of the first operand are the features. -/
theorem XC_piece0 (c : Dev nD) (r : Fin 50000) (j : Fin 768) (k : Fin 256) (hj : j.val = 0 + k.val) :
    XC m c (ix2 r j) = feat m c (ix2 r k) := by
  rw [operandX]
  exact concatenate_apply_piece (t := S50000x768) (1 : Fin 2) [⟨S50000x256, feat m c⟩, ⟨S50000x256, meanSampled m c⟩, ⟨S50000x256, meanOthers m c⟩] concatenates_S50000x256_S50000x256_S50000x256_S50000x768_d1 (ix2 r j) 0 (by show (0 : ℕ) < 3; omega) S50000x256 _ rfl rfl 0 rfl (ix2 r k)
    (fun b hb => by
      match b with
      | ⟨0, _⟩ => rfl
      | ⟨1, _⟩ => exact absurd (Fin.ext rfl) hb)
    (by show 0 + k.val = j.val; omega)
/-- Columns `256 … 511` of the first operand are the mean over the sampled neighbours. -/
theorem XC_piece1 (c : Dev nD) (r : Fin 50000) (j : Fin 768) (k : Fin 256) (hj : j.val = 256 + k.val) :
    XC m c (ix2 r j) = meanSampled m c (ix2 r k) := by
  rw [operandX]
  exact concatenate_apply_piece (t := S50000x768) (1 : Fin 2) [⟨S50000x256, feat m c⟩, ⟨S50000x256, meanSampled m c⟩, ⟨S50000x256, meanOthers m c⟩] concatenates_S50000x256_S50000x256_S50000x256_S50000x768_d1 (ix2 r j) 1 (by show (1 : ℕ) < 3; omega) S50000x256 _ rfl rfl 256 rfl (ix2 r k)
    (fun b hb => by
      match b with
      | ⟨0, _⟩ => rfl
      | ⟨1, _⟩ => exact absurd (Fin.ext rfl) hb)
    (by show 256 + k.val = j.val; omega)
/-- Columns `512 … 767` of the first operand are the mean over the other neighbours. -/
theorem XC_piece2 (c : Dev nD) (r : Fin 50000) (j : Fin 768) (k : Fin 256) (hj : j.val = 512 + k.val) :
    XC m c (ix2 r j) = meanOthers m c (ix2 r k) := by
  rw [operandX]
  exact concatenate_apply_piece (t := S50000x768) (1 : Fin 2) [⟨S50000x256, feat m c⟩, ⟨S50000x256, meanSampled m c⟩, ⟨S50000x256, meanOthers m c⟩] concatenates_S50000x256_S50000x256_S50000x256_S50000x768_d1 (ix2 r j) 2 (by show (2 : ℕ) < 3; omega) S50000x256 _ rfl rfl 512 rfl (ix2 r k)
    (fun b hb => by
      match b with
      | ⟨0, _⟩ => rfl
      | ⟨1, _⟩ => exact absurd (Fin.ext rfl) hb)
    (by show 512 + k.val = j.val; omega)

/-- Rows `0 … 255` of the second operand are the first weight matrix. -/
theorem WC_piece0 (c : Dev nD) (j : Fin 768) (k : Fin 256) (q : Fin 256) (hj : j.val = 0 + k.val) :
    WC m c (ix2 j q) = wSelf m c (ix2 k q) := by
  rw [operandW]
  exact concatenate_apply_piece (t := S768x256) (0 : Fin 2) [⟨S256x256, wSelf m c⟩, ⟨S256x256, wNeigh m c⟩, ⟨S256x256, wCoarsen m c⟩] concatenates_S256x256_S256x256_S256x256_S768x256_d0 (ix2 j q) 0 (by show (0 : ℕ) < 3; omega) S256x256 _ rfl rfl 0 rfl (ix2 k q)
    (fun b hb => by
      match b with
      | ⟨0, _⟩ => exact absurd (Fin.ext rfl) hb
      | ⟨1, _⟩ => rfl)
    (by show 0 + k.val = j.val; omega)
/-- Rows `256 … 511` of the second operand are the second weight matrix. -/
theorem WC_piece1 (c : Dev nD) (j : Fin 768) (k : Fin 256) (q : Fin 256) (hj : j.val = 256 + k.val) :
    WC m c (ix2 j q) = wNeigh m c (ix2 k q) := by
  rw [operandW]
  exact concatenate_apply_piece (t := S768x256) (0 : Fin 2) [⟨S256x256, wSelf m c⟩, ⟨S256x256, wNeigh m c⟩, ⟨S256x256, wCoarsen m c⟩] concatenates_S256x256_S256x256_S256x256_S768x256_d0 (ix2 j q) 1 (by show (1 : ℕ) < 3; omega) S256x256 _ rfl rfl 256 rfl (ix2 k q)
    (fun b hb => by
      match b with
      | ⟨0, _⟩ => exact absurd (Fin.ext rfl) hb
      | ⟨1, _⟩ => rfl)
    (by show 256 + k.val = j.val; omega)
/-- Rows `512 … 767` of the second operand are the third weight matrix. -/
theorem WC_piece2 (c : Dev nD) (j : Fin 768) (k : Fin 256) (q : Fin 256) (hj : j.val = 512 + k.val) :
    WC m c (ix2 j q) = wCoarsen m c (ix2 k q) := by
  rw [operandW]
  exact concatenate_apply_piece (t := S768x256) (0 : Fin 2) [⟨S256x256, wSelf m c⟩, ⟨S256x256, wNeigh m c⟩, ⟨S256x256, wCoarsen m c⟩] concatenates_S256x256_S256x256_S256x256_S768x256_d0 (ix2 j q) 2 (by show (2 : ℕ) < 3; omega) S256x256 _ rfl rfl 512 rfl (ix2 k q)
    (fun b hb => by
      match b with
      | ⟨0, _⟩ => exact absurd (Fin.ext rfl) hb
      | ⟨1, _⟩ => rfl)
    (by show 512 + k.val = j.val; omega)

end Cert.KernelIdeal.Operands

end
-- ==== Proof.ReferenceAtIndex.lean ====
/-
  The reference program's result read at one entry.

  Entry `(r, q)` of the reference's result is
  `((∑ k, x (r, k) · W_self (k, q) + b_self q) + (∑ k, s (r, k) · W_neigh (k, q) + b_neigh q)) + (∑ k, u (r, k) · W_coarsen (k, q) + b_coarsen q)`
  with `s`, `u` the means of `x` over each node's sampled and other neighbours, each sum over the 256 features: every
  product of matrices is the plain sum of products on the extended reals, and each bias is one row repeated over the
  50000 rows. The two means stay the program's own terms for them.
-/
import proofs.«181378_j65000035058039_1_alg».proof.Proof.Gen.ReferenceIdeal.Read

noncomputable section

open scoped BigOperators

namespace Cert.ReferenceIdeal.AtIndex

open Cert.ReferenceIdeal Cert.ReferenceIdeal.Gen Cert.ReferenceIdeal.Read Idealize.ShloMosaic Idealize.ShloMosaic.ValueIdx

/-- At output entry `(r, q)` and contraction place `k` a product reads its left factor at `(r, k)` -/
theorem left_at (r : Fin 50000) (q k : Fin 256) : lidx_main_v22 (ix2 r q) k = ix2 r k :=
  funext fun a => Fin.ext (by match a with | ⟨0, _⟩ => rfl | ⟨1, _⟩ => rfl)
/-- and its right factor at `(k, q)`. -/
theorem right_at (r : Fin 50000) (q k : Fin 256) : ridx_main_v22 (ix2 r q) k = ix2 k q :=
  funext fun a => Fin.ext (by match a with | ⟨0, _⟩ => rfl | ⟨1, _⟩ => rfl)
/-- A bias broadcast over the rows is read, at `(r, q)`, at `q`. -/
theorem bias_at (r : Fin 50000) (q : Fin 256) : idx_main_v23 (idx_main_v24 (ix2 r q)) = ix1 q :=
  funext fun a => Fin.ext (by match a with | ⟨0, _⟩ => rfl)

/-- The reference's result at entry `(r, q)`. -/
theorem result_apply (x0 : (⟨S50000x256, .f32⟩ : BufTy).Contents (Elt Ideal)) (x1 : (⟨S256x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S50000x32, .i32⟩ : BufTy).Contents (Elt Ideal))
    (r : Fin 50000) (q : Fin 256) :
    val_main_v35 (F := Ideal) x0 x1 x2 x3 x4 x5 x6 x7 (ix2 r q)
      = ((∑ k : Fin 256, x0 (ix2 r k) * x1 (ix2 k q)) + x2 (ix1 q))
        + ((∑ k : Fin 256, val_main_v11 (F := Ideal) x0 x7 (ix2 r k) * x3 (ix2 k q)) + x4 (ix1 q))
        + ((∑ k : Fin 256, val_main_v21 (F := Ideal) x0 x7 (ix2 r k) * x5 (ix2 k q)) + x6 (ix1 q)) := by
  rw [val_main_v35_apply, val_main_v30_apply, val_main_v34_apply, val_main_v25_apply, val_main_v29_apply,
    val_main_v22_apply, val_main_v26_apply, val_main_v31_apply,
    val_main_v24_apply, val_main_v23_apply, val_main_v28_apply, val_main_v27_apply, val_main_v33_apply, val_main_v32_apply]
  simp only [Ideal.addf_def]
  have hl : ∀ k, lidx_main_v26 (ix2 r q) k = ix2 r k := left_at r q
  have hr : ∀ k, ridx_main_v26 (ix2 r q) k = ix2 k q := right_at r q
  have hl' : ∀ k, lidx_main_v31 (ix2 r q) k = ix2 r k := left_at r q
  have hr' : ∀ k, ridx_main_v31 (ix2 r q) k = ix2 k q := right_at r q
  have hb : idx_main_v27 (idx_main_v28 (ix2 r q)) = ix1 q := bias_at r q
  have hb' : idx_main_v32 (idx_main_v33 (ix2 r q)) = ix1 q := bias_at r q
  simp only [left_at, right_at, bias_at, hl, hr, hl', hr', hb, hb']

end Cert.ReferenceIdeal.AtIndex

end
-- ==== Proof.LayerSum.lean ====
/-
  The one law that joins the fused layer to the three separate ones.

  A sum of 768 terms whose three consecutive runs of 256 terms are `f0`, `f1`, `f2` is the sum of the three sums; hence
  one product over a contraction of length 768 plus a sum of three biases is the sum of three products over contractions
  of length 256, each with its own bias. Only commutativity and associativity of addition are used, so the law holds in
  any commutative additive monoid — in particular on the extended reals, with no finiteness assumption: no product is
  distributed and nothing is cancelled.
-/
import Idealize.ShloMosaic.PureOps.Ideal
import Mathlib.Algebra.BigOperators.Fin

open scoped BigOperators

namespace Cert.LayerSum

/-- A sum over `Fin 768` splits into its three runs of 256 terms. The runs are given by the positions of their
    terms: term `j` belongs to run 0, 1 or 2 at place `k` when `j = k`, `j = 256 + k` or `j = 512 + k`. -/
theorem sum_three_runs {M : Type} [AddCommMonoid M] (f : Fin 768 → M) (f0 f1 f2 : Fin 256 → M)
    (h0 : ∀ (j : Fin 768) (k : Fin 256), j.val = k.val → f j = f0 k)
    (h1 : ∀ (j : Fin 768) (k : Fin 256), j.val = 256 + k.val → f j = f1 k)
    (h2 : ∀ (j : Fin 768) (k : Fin 256), j.val = 512 + k.val → f j = f2 k) :
    ∑ j, f j = ∑ k, f0 k + ∑ k, f1 k + ∑ k, f2 k := by
  have e : ∑ j : Fin 768, f j = ∑ j : Fin (256 + 256 + 256), f j := rfl
  rw [e, Fin.sum_univ_add, Fin.sum_univ_add]
  congr 1
  · congr 1
    · exact Finset.sum_congr rfl fun k _ => h0 _ k rfl
    · exact Finset.sum_congr rfl fun k _ => h1 _ k rfl
  · exact Finset.sum_congr rfl fun k _ => h2 _ k (by show 256 + 256 + k.val = 512 + k.val; omega)

/-- The fused product with the summed bias is the sum of the three products with their biases. -/
theorem fused_eq_separate {M : Type} [AddCommMonoid M] (f : Fin 768 → M) (f0 f1 f2 : Fin 256 → M)
    (h0 : ∀ (j : Fin 768) (k : Fin 256), j.val = k.val → f j = f0 k)
    (h1 : ∀ (j : Fin 768) (k : Fin 256), j.val = 256 + k.val → f j = f1 k)
    (h2 : ∀ (j : Fin 768) (k : Fin 256), j.val = 512 + k.val → f j = f2 k) (b0 b1 b2 : M) :
    ∑ j, f j + (b0 + b1 + b2) = (∑ k, f0 k + b0) + (∑ k, f1 k + b1) + (∑ k, f2 k + b2) := by
  rw [sum_three_runs f f0 f1 f2 h0 h1 h2]
  abel

end Cert.LayerSum
-- ==== Proof.lean ====
/-
  The fused graph layer against its reference, on the extended reals.

  Both programs first form, by the same array operations with the same constants, the mean `s` of the features `x` over
  each node's 16 sampled neighbours and the mean `u` over its 16 other neighbours. The reference then computes
    `(x · W_self + b_self) + (s · W_neigh + b_neigh) + (u · W_coarsen + b_coarsen)`,
  three products over 256 features. The kernel program instead lays `[x | s | u]` side by side (768 columns), stacks the
  three weight matrices (768 rows), adds the three biases, and computes ONE product over 768 plus that bias, 2000 rows of
  the result per grid point, 25 points.

  On the extended reals every change of floating-point format is the identity, and a product of matrices is the plain sum
  of products. A sum over 768 terms is the sum of its three runs of 256, and addition is commutative and associative, so
  the two results agree entry by entry (`Cert.LayerSum.fused_eq_separate`). No product is distributed over a sum and
  nothing is cancelled, so the equality needs no finiteness of the inputs: the precondition is not used.

  The three frame properties: each kernel program runs its 34 array operations and then its 25 grid points, each point
  reading its three input blocks whole and overwriting its output block whole, and touches no argument
  (`Region.frame`, at either reading of the floating-point operations); the reference is array operations only. The
  idealized kernel program is the kernel program's own text, so there is nothing to preserve.
-/
import proofs.«181378_j65000035058039_1_alg».proof.Defs
import proofs.«181378_j65000035058039_1_alg».proof.Proof.Gen.Kernel
import proofs.«181378_j65000035058039_1_alg».proof.Proof.Gen.KernelIdeal
import proofs.«181378_j65000035058039_1_alg».proof.Proof.Gen.ReferenceIdeal
import proofs.«181378_j65000035058039_1_alg».proof.Proof.Gen.Pre_finite_inputs
import proofs.«181378_j65000035058039_1_alg».proof.Proof.Gen.ReferenceIdeal.Run
import proofs.«181378_j65000035058039_1_alg».proof.Proof.Gen.ReferenceIdeal.Read
import proofs.«181378_j65000035058039_1_alg».proof.Proof.RegionBits
import proofs.«181378_j65000035058039_1_alg».proof.Proof.RegionIdeal
import proofs.«181378_j65000035058039_1_alg».proof.Proof.ResultIdeal
import proofs.«181378_j65000035058039_1_alg».proof.Proof.OperandsIdeal
import proofs.«181378_j65000035058039_1_alg».proof.Proof.ReferenceAtIndex
import proofs.«181378_j65000035058039_1_alg».proof.Proof.LayerSum
import Idealize.ShloMosaic.Adequacy
import Idealize.ShloMosaic.Init

noncomputable section

open scoped BigOperators

namespace Cert.Proof

open Idealize.ShloMosaic Idealize.ShloMosaic.TcCoe Idealize.SL.Sem Idealize.ShloMosaic.ValueIdx
open Cert.KernelIdeal.Result Cert.KernelIdeal.Operands

/-- Entry by entry, the kernel's one product over 768 with the summed bias is the reference's three products over 256
    with their biases: the result array of the kernel program is the reference's result term of the same arguments. -/
theorem layer_eq_reference (m : (ℓ : Loc Cert.KernelIdeal.nD Cert.KernelIdeal.τ Cert.KernelIdeal.sig) → Buf (Elt Ideal) ℓ)
    (c : Dev Cert.KernelIdeal.nD) :
    layer (XC m c) (WC m c) (BC m c)
      = Cert.ReferenceIdeal.Read.val_main_v35 (F := Ideal) (feat m c) (wSelf m c) (bSelf m c) (wNeigh m c) (bNeigh m c) (wCoarsen m c) (bCoarsen m c)
          (m ((c : Thread Cert.KernelIdeal.nD Cert.KernelIdeal.τ).loc Cert.KernelIdeal.main_arg7)) := by
  funext i
  obtain ⟨r, q, rfl⟩ : ∃ (r : Fin 50000) (q : Fin 256), i = ix2 r q := ⟨i 0, i 1, eq_ix2 i⟩
  refine Eq.trans ?_ (Cert.ReferenceIdeal.AtIndex.result_apply _ _ _ _ _ _ _ _ r q).symm
  show (∑ j : Fin 768, XC m c (ix2 r j) * WC m c (ix2 j q)) + BC m c (ix1 q) = _
  rw [operandB]
  exact Cert.LayerSum.fused_eq_separate (fun j => XC m c (ix2 r j) * WC m c (ix2 j q))
    (fun k => feat m c (ix2 r k) * wSelf m c (ix2 k q))
    (fun k => meanSampled m c (ix2 r k) * wNeigh m c (ix2 k q))
    (fun k => meanOthers m c (ix2 r k) * wCoarsen m c (ix2 k q))
    (fun j k h => by
      show XC m c (ix2 r j) * WC m c (ix2 j q) = _
      rw [XC_piece0 m c r j k (by omega), WC_piece0 m c j k q (by omega)])
    (fun j k h => by
      show XC m c (ix2 r j) * WC m c (ix2 j q) = _
      rw [XC_piece1 m c r j k h, WC_piece1 m c j k q h])
    (fun j k h => by
      show XC m c (ix2 r j) * WC m c (ix2 j q) = _
      rw [XC_piece2 m c r j k h, WC_piece2 m c j k q h])
    _ _ _

theorem frame_kernel : Cert.frame_Kernel := fun m ρ _ => Cert.Kernel.Region.frame m ρ
theorem frame_kernelIdeal : Cert.frame_KernelIdeal := fun m ρ _ => Cert.KernelIdeal.Region.frame m ρ
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs run to their ends with the same result array. -/
theorem algebraic : Cert.algebraic_KernelIdeal_ReferenceIdeal := by
  intro m ρ m' ρ' _ hagree
  refine ⟨fun c => layer (XC m c) (WC m c) (BC m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2.1, (hagree c).2.2.1, (hagree c).2.2.2.1, (hagree c).2.2.2.2.1, (hagree c).2.2.2.2.2.1, (hagree c).2.2.2.2.2.2.1, (hagree c).2.2.2.2.2.2.2]
  exact (layer_eq_reference m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
